-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x1, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S128x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S128x128, .f32⟩
  | .hbm, ⟨87, _⟩ => ⟨S50000x128, .f32⟩
  | .hbm, ⟨88, _⟩ => ⟨S128x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_c_4 : Ref sig .tc := ⟨.hbm, 70, rfl⟩
abbrev main_v48 : Ref sig .tc := ⟨.hbm, 71, rfl⟩
abbrev main_v49 : Ref sig .tc := ⟨.hbm, 72, rfl⟩
abbrev main_c_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with every buffer named.

  @main is three launches of the layer kernel among three stretches of host operations.  The contents of the
  TensorCore's buffers at the six boundaries are a fold from the launch memory: a stretch of host operations applies
  them in order, a launch leaves each of its arrays at what its write-backs leave and every other buffer as it was.
  Every weakly fair execution terminates, and in the final memory every buffer that outlives the launches holds the
  last value of that fold (`W6`).  The frame claim keeps of this only the twelve argument arrays; here the whole
  reading is kept, so that the result buffer can be read too.
-/
import proofs.«174606_j17231408791768_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final memory each buffer that
    outlives the launches holds the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, keeping the result buffer and the twelve arguments: the result at the fold's last value, each
    argument as launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v54 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩)
    (run_all m ρ)

end Cert.KernelIdeal.Whole

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«174606_j17231408791768_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«174606_j17231408791768_2_alg».proof.Proof.LibKeepdims
import proofs.«174606_j17231408791768_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibSageLayers.lean ====
/-
  Two graph layers, read one node at a time on the extended reals.

  A mean-aggregating graph layer sends a node with aggregated neighbour features a and own features x to
  (a · Wl + x · Wr) + b: entry f is (∑ a d · Wl d f) + (∑ x d · Wr d f) + b f.  The first layer rectifies this (its maximum
  with zero); the second takes the log-softmax of the row: (z q − M) − log ∑ exp (z k − M), with M the row maximum.
  On the extended reals a change of float format is the identity, a matrix product accumulated into zero is the plain
  sum of products, and a reduction along the last axis is the sum or the supremum over that axis.  So a kernel's
  vector operations on a block of B nodes leave, at (p, f), the row function of node p: the lemmas below say so for
  any extents B, K, N.
-/
import Idealize.ShloMosaic.PureOps.Ideal.Laws
import Idealize.ShloMosaic.Lib.ValueIdx
import Idealize.ShloMosaic.Lib.ValueLayout
import Idealize.ShloMosaic.Lib.Pipeline.Value
import proofs.«174606_j17231408791768_2_alg».proof.Proof.LibInnerProducts
import proofs.«174606_j17231408791768_2_alg».proof.Proof.LibRowReduce

noncomputable section

namespace Cert.LibSageLayers

open Idealize.ShloMosaic Idealize.ShloMosaic.ValueIdx
open scoped BigOperators

/-! ## The row functions -/

/-- The layer before its activation, at one node: (a · Wl + x · Wr) + b, entry f, the sums associated in this order. -/
def pre {K N : ℕ} (a x : Fin K → EReal) (Wl Wr : Fin K → Fin N → EReal) (b : Fin N → EReal) (f : Fin N) : EReal :=
  ((∑ d : Fin K, a d * Wl d f) + ∑ d : Fin K, x d * Wr d f) + b f

/-- The rectified layer at one node: the maximum of the pre-activation with zero (the f32 word of zero). -/
def rectified {K N : ℕ} (a x : Fin K → EReal) (Wl Wr : Fin K → Fin N → EReal) (b : Fin N → EReal) (f : Fin N) : EReal :=
  max (pre a x Wl Wr b f) (Ideal.ofBits .f32 0x00000000#32)

/-- The log-softmax of one row: the row shifted by its maximum, minus the logarithm of the sum of the shifted row's
    exponentials. -/
def logSoftmax {n : ℕ} (z : Fin n → EReal) (q : Fin n) : EReal :=
  (z q - ⨆ k : Fin n, z k) - Ideal.log (∑ k : Fin n, Ideal.exp (z k - ⨆ j : Fin n, z j))

/-! ## A kernel's forms on a block of B nodes -/

/-- Two products into zero, added, plus the bias row [1, N] spread over the block: at (p, f) the pre-activation of
    node p.  The factors may be of any float format. -/
theorem pre_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    addf (addf (matmul D none y0 wl (constant (F := Ideal) ⟨2, ![B, N]⟩ .f32 0x00000000#32))
          (matmul D none y1 wr (constant (F := Ideal) ⟨2, ![B, N]⟩ .f32 0x00000000#32)))
        (broadcastTo ⟨2, ![B, N]⟩ (shapeCast ⟨2, ![1, N]⟩ b hc) hb) (ix2 p f)
      = pre (fun d => (y0 (ix2 p d) : EReal)) (fun d => (y1 (ix2 p d) : EReal))
          (fun d f => (wl (ix2 d f) : EReal)) (fun d f => (wr (ix2 d f) : EReal)) (fun f => b (ix2 0 f)) f := by
  show (_ + _) + _ = _
  rw [InnerProducts.matmul_zero_apply D hD none y0 wl p f, InnerProducts.matmul_zero_apply D hD none y1 wr p f,
    broadcastTo_1b_ab_apply _ hb p f, shapeCast_self b hc]
  rfl

/-- The rectified layer in a kernel's form: the pre-activation's maximum with a splat of the zero word. -/
theorem rectified_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    maximumf (addf (addf (matmul D none y0 wl (constant (F := Ideal) ⟨2, ![B, N]⟩ .f32 0x00000000#32))
            (matmul D none y1 wr (constant (F := Ideal) ⟨2, ![B, N]⟩ .f32 0x00000000#32)))
          (broadcastTo ⟨2, ![B, N]⟩ (shapeCast ⟨2, ![1, N]⟩ b hc) hb))
        (broadcast ⟨2, ![B, N]⟩ (Scalar.ofBits (F := Ideal) .f32 0x00000000#32)) (ix2 p f)
      = rectified (fun d => (y0 (ix2 p d) : EReal)) (fun d => (y1 (ix2 p d) : EReal))
          (fun d f => (wl (ix2 d f) : EReal)) (fun d f => (wr (ix2 d f) : EReal)) (fun f => b (ix2 0 f)) f := by
  show max (addf _ _ (ix2 p f)) (Ideal.ofBits .f32 0x00000000#32) = _
  rw [pre_kernel_apply D hD y0 y1 wl wr b hc hb p f]
  rfl

/-- A kernel's log-softmax along the rows of a [B, n] block: lane maximum and lane sum, each kept as a column and
    spread back over the row.  At (p, q) it is the log-softmax of row p. -/
theorem logSoftmax_kernel_apply {B n : ℕ} (z : FVec Ideal ⟨2, ![B, n]⟩ .f32)
    (h : (⟨2, ![B, n]⟩ : Shape).Reduces [1] ⟨1, ![B]⟩)
    (hc : (⟨1, ![B]⟩ : Shape).ShapeCasts ⟨2, ![B, 1]⟩) (hb : (⟨2, ![B, 1]⟩ : Shape).Broadcasts ⟨2, ![B, n]⟩)
    (p : Fin B) (q : Fin n) :
    subf (subf z (broadcastTo ⟨2, ![B, n]⟩ (shapeCast ⟨2, ![B, 1]⟩
            (multiReduction .maximumf [1] ⟨1, ![B]⟩ z 0xFF800000#32 h (.inl rfl) rfl) hc) hb))
        (broadcastTo ⟨2, ![B, n]⟩ (log (shapeCast ⟨2, ![B, 1]⟩
          (multiReduction .add [1] ⟨1, ![B]⟩
            (exp (subf z (broadcastTo ⟨2, ![B, n]⟩ (shapeCast ⟨2, ![B, 1]⟩
              (multiReduction .maximumf [1] ⟨1, ![B]⟩ z 0xFF800000#32 h (.inl rfl) rfl) hc) hb)))
            0x00000000#32 h (.inl rfl) rfl) hc)) hb) (ix2 p q)
      = logSoftmax (fun k => z (ix2 p k)) q := by
  -- the row maximum, spread back over the row, read at any entry of row p
  have hm : ∀ k : Fin n, broadcastTo ⟨2, ![B, n]⟩ (shapeCast ⟨2, ![B, 1]⟩
        (multiReduction .maximumf [1] ⟨1, ![B]⟩ z 0xFF800000#32 h (.inl rfl) rfl) hc) hb (ix2 p k)
        = ⨆ j : Fin n, z (ix2 p j) := fun k =>
    (LibRowReduce.column_apply _ hc hb p k).trans (LibRowReduce.rowMax_apply z h p)
  -- the exponential of the shifted row, at any entry of row p
  have he : ∀ k : Fin n, exp (subf z (broadcastTo ⟨2, ![B, n]⟩ (shapeCast ⟨2, ![B, 1]⟩
        (multiReduction .maximumf [1] ⟨1, ![B]⟩ z 0xFF800000#32 h (.inl rfl) rfl) hc) hb)) (ix2 p k)
        = Ideal.exp (z (ix2 p k) - ⨆ j : Fin n, z (ix2 p j)) := by
    intro k
    show Ideal.exp (z (ix2 p k) - _) = _
    rw [hm k]
  show (z (ix2 p q) - _) - _ = _
  rw [hm q, LibKeepdims.broadcastTo_a1_ab_apply _ hb p q]
  show _ - Ideal.log (shapeCast ⟨2, ![B, 1]⟩ _ hc (ix2 p (0 : Fin 1))) = _
  rw [LibKeepdims.shapeCast_a_a1_apply _ hc p 0, LibRowReduce.rowSum_apply _ h p]
  unfold logSoftmax
  exact congrArg (fun s => (z (ix2 p q) - ⨆ j : Fin n, z (ix2 p j)) - Ideal.log s) (Finset.sum_congr rfl fun k _ => he k)

/-! ## Congruence: the row functions depend on their rows entry by entry -/

theorem pre_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : pre a x Wl Wr b f = pre a' x' Wl' Wr' b' f := by
  obtain rfl : a = a' := funext ha
  obtain rfl : x = x' := funext hx
  obtain rfl : Wl = Wl' := funext fun d => funext (hl d)
  obtain rfl : Wr = Wr' := funext fun d => funext (hr d)
  obtain rfl : b = b' := funext hb
  rfl

theorem rectified_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : rectified a x Wl Wr b f = rectified a' x' Wl' Wr' b' f := by
  unfold rectified
  rw [pre_congr ha hx hl hr hb f]

theorem logSoftmax_congr {n : ℕ} {z z' : Fin n → EReal} (h : ∀ k, z k = z' k) (q : Fin n) :
    logSoftmax z q = logSoftmax z' q := by
  obtain rfl : z = z' := funext h
  rfl

/-! ## A bias vector as a row -/

/-- A bias vector [N] laid out as a row [1, N]. -/
def rowOf {N : ℕ} (b : FVec Ideal ⟨1, ![N]⟩ .f32) : FVec Ideal ⟨2, ![1, N]⟩ .f32 := fun j => b (ix1 (j 1))

theorem rowOf_apply {N : ℕ} (b : FVec Ideal ⟨1, ![N]⟩ .f32) (u : Fin 1) (f : Fin N) : rowOf b (ix2 u f) = b (ix1 f) := rfl

/-- A vector [N] recast to [1, N] is that row. -/
theorem shapeCast_eq_rowOf {N : ℕ} (b : FVec Ideal ⟨1, ![N]⟩ .f32) (h : (⟨1, ![N]⟩ : Shape).ShapeCasts ⟨2, ![1, N]⟩) :
    shapeCast ⟨2, ![1, N]⟩ b h = rowOf b := by
  funext j
  obtain ⟨u, f, rfl⟩ : ∃ (u : Fin 1) (f : Fin N), j = ix2 u f := ⟨j 0, j 1, eq_ix2 j⟩
  exact shapeCast_a_1a_apply b h u f

/-! ## The layers on whole arrays -/

/-- The rectified layer of every node: from the aggregated features A and the node features X (both [M, K]), the
    weights [K, N] and the bias row [1, N], the [M, N] array whose row r is the rectified layer of row r. -/
def hiddenArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  rectified (fun d => A (ix2 (j 0) d)) (fun d => X (ix2 (j 0) d)) (fun d f => Wl (ix2 d f)) (fun d f => Wr (ix2 d f))
    (fun f => b (ix2 0 f)) (j 1)

theorem hiddenArr_apply {M K N : ℕ} (A X : FVec Ideal ⟨2, ![M, K]⟩ .f32) (Wl Wr : FVec Ideal ⟨2, ![K, N]⟩ .f32)
    (b : FVec Ideal ⟨2, ![1, N]⟩ .f32) (r : Fin M) (f : Fin N) :
    hiddenArr A X Wl Wr b (ix2 r f)
      = rectified (fun d => A (ix2 r d)) (fun d => X (ix2 r d)) (fun d f => Wl (ix2 d f)) (fun d f => Wr (ix2 d f))
          (fun f => b (ix2 0 f)) f := rfl

/-- The log-softmax layer of every node: row r is the log-softmax of the layer's row r. -/
def outArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  logSoftmax (pre (fun d => A (ix2 (j 0) d)) (fun d => X (ix2 (j 0) d)) (fun d f => Wl (ix2 d f)) (fun d f => Wr (ix2 d f))
    (fun f => b (ix2 0 f))) (j 1)

theorem outArr_apply {M K N : ℕ} (A X : FVec Ideal ⟨2, ![M, K]⟩ .f32) (Wl Wr : FVec Ideal ⟨2, ![K, N]⟩ .f32)
    (b : FVec Ideal ⟨2, ![1, N]⟩ .f32) (r : Fin M) (q : Fin N) :
    outArr A X Wl Wr b (ix2 r q)
      = logSoftmax (pre (fun d => A (ix2 r d)) (fun d => X (ix2 r d)) (fun d f => Wl (ix2 d f)) (fun d f => Wr (ix2 d f))
          (fun f => b (ix2 0 f))) q := rfl

end Cert.LibSageLayers

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibGraphLayer.lean ====
/-
  One graph-convolution layer on whole arrays, on the extended reals.

  A node with aggregated neighbour features a and own features x goes to (a · Wl + x · Wr) + b, entry f being
  ((∑ a d · Wl d f) + (∑ x d · Wr d f)) + b f, the sums associated in this order; a hidden layer takes the maximum of
  this with zero.  Here: the un-rectified layer of every node as one [M, N] array, and the host's spelling of both
  layers — two contractions of [M, K] with [K, N], their sum, the bias vector spread first to a row [1, N] and then
  over the M rows, and for the hidden layer the maximum with a spread zero — each equal, as a whole array, to the
  layer's array.  Only the definitions of the operations are used: a contraction into a sum of products, a spread
  bias read at its column.  No law of the extended reals is needed, so nothing asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«174606_j17231408791768_2_alg».proof.Proof.LibSageLayers
import proofs.«174606_j17231408791768_2_alg».proof.Proof.LibInnerProducts
import proofs.«174606_j17231408791768_2_alg».proof.Proof.LibInDimRow

noncomputable section

namespace Cert.LibGraphLayer

open Idealize.ShloMosaic Idealize.ShloMosaic.ValueIdx Cert.LibSageLayers
open scoped BigOperators

/-- The un-rectified layer of every node: row r of the [M, N] result is the layer of row r of A and of X. -/
def linearArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  pre (fun d => A (ix2 (j 0) d)) (fun d => X (ix2 (j 0) d)) (fun d f => Wl (ix2 d f)) (fun d f => Wr (ix2 d f))
    (fun f => b (ix2 0 f)) (j 1)

theorem linearArr_apply {M K N : ℕ} (A X : FVec Ideal ⟨2, ![M, K]⟩ .f32) (Wl Wr : FVec Ideal ⟨2, ![K, N]⟩ .f32)
    (b : FVec Ideal ⟨2, ![1, N]⟩ .f32) (r : Fin M) (f : Fin N) :
    linearArr A X Wl Wr b (ix2 r f)
      = pre (fun d => A (ix2 r d)) (fun d => X (ix2 r d)) (fun d f => Wl (ix2 d f)) (fun d f => Wr (ix2 d f))
          (fun f => b (ix2 0 f)) f := rfl

/-- The host's un-rectified layer, entry (r, f): the two contractions as sums, the bias read at column f. -/
theorem linear_host_apply {M K N : ℕ} (D : DotDims ⟨2, ![M, K]⟩ ⟨2, ![K, N]⟩ ⟨2, ![M, N]⟩) (hD : D = DotDims.plain M K N)
    (A X : FVec Ideal ⟨2, ![M, K]⟩ .f32) (Wl Wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (f : Fin N) :
    addf (addf (Host.dotGeneral D none A Wl) (Host.dotGeneral D none X Wr))
        (broadcastInDim ⟨2, ![M, N]⟩ ![0, 1] h2 (broadcastInDim ⟨2, ![1, N]⟩ ![1] h1 b)) (ix2 r f)
      = pre (fun d => A (ix2 r d)) (fun d => X (ix2 r d)) (fun d f => Wl (ix2 d f)) (fun d f => Wr (ix2 d f))
          (fun f => rowOf b (ix2 0 f)) f := by
  show (Host.dotGeneral D none A Wl (ix2 r f) + Host.dotGeneral D none X Wr (ix2 r f))
      + broadcastInDim ⟨2, ![M, N]⟩ ![0, 1] h2 (broadcastInDim ⟨2, ![1, N]⟩ ![1] h1 b) (ix2 r f) = _
  rw [InnerProducts.dotGeneral_apply D hD none A Wl r f, InnerProducts.dotGeneral_apply D hD none X Wr r f,
    LibInDimRow.inDim_1b_ab_apply _ h2 r f, LibInDimRow.inDim_b_1b_apply b h1 0 f]
  rfl

/-- The host's un-rectified layer is the layer's array. -/
theorem linear_host {M K N : ℕ} (D : DotDims ⟨2, ![M, K]⟩ ⟨2, ![K, N]⟩ ⟨2, ![M, N]⟩) (hD : D = DotDims.plain M K N)
    (A X : FVec Ideal ⟨2, ![M, K]⟩ .f32) (Wl Wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral D none A Wl) (Host.dotGeneral D none X Wr))
        (broadcastInDim ⟨2, ![M, N]⟩ ![0, 1] h2 (broadcastInDim ⟨2, ![1, N]⟩ ![1] h1 b))
      = linearArr A X Wl Wr (rowOf b) := by
  funext j
  obtain ⟨r, f, rfl⟩ : ∃ (r : Fin M) (f : Fin N), j = ix2 r f := ⟨j 0, j 1, eq_ix2 j⟩
  exact linear_host_apply D hD A X Wl Wr b h1 h2 r f

/-- The host's hidden layer — the maximum of the un-rectified layer with a zero spread over the array — is the
    rectified layer's array. -/
theorem hidden_host {M K N : ℕ} (D : DotDims ⟨2, ![M, K]⟩ ⟨2, ![K, N]⟩ ⟨2, ![M, N]⟩) (hD : D = DotDims.plain M K N)
    (A X : FVec Ideal ⟨2, ![M, K]⟩ .f32) (Wl Wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral D none A Wl) (Host.dotGeneral D none X Wr))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hiddenArr A X Wl Wr (rowOf b) := by
  funext j
  obtain ⟨r, f, rfl⟩ : ∃ (r : Fin M) (f : Fin N), j = ix2 r f := ⟨j 0, j 1, eq_ix2 j⟩
  rw [hiddenArr_apply]
  show max (addf (addf (Host.dotGeneral D none A Wl) (Host.dotGeneral D none X Wr))
      (broadcastInDim ⟨2, ![M, N]⟩ ![0, 1] h2 (broadcastInDim ⟨2, ![1, N]⟩ ![1] h1 b)) (ix2 r f))
    (Ideal.ofBits .f32 0x00000000#32) = _
  rw [linear_host_apply D hD A X Wl Wr b h1 h2 r f]
  rfl

end Cert.LibGraphLayer

end
-- ==== Proof.Region0.lean ====
/-
  Launch 0 of the layer kernel, as one function of the arrays it finds.

  The launch walks 25 grid points; point t stages rows 2000·t … 2000·t + 1999 of the aggregated features and of the
  node features, the two [128, 128] weight matrices and the [1, 128] bias row whole, and writes back rows
  2000·t … 2000·t + 1999 of the result.  On the extended reals the body's payload at (p, f) is the rectified layer of
  row p of the two staged blocks (a change of float format is the identity, a product accumulated into zero is the
  plain sum of products).  Row p of block t is row 2000·t + p of the array, so what point t writes back is block t of
  the layer's whole array; the 25 blocks tile the 50000 rows, so the result array ends holding the layer's array.
-/
import proofs.«174606_j17231408791768_2_alg».proof.Proof.KernelIdealFrameP
import proofs.«174606_j17231408791768_2_alg».proof.Proof.LibGraphLayer

set_option maxRecDepth 16384

noncomputable section

namespace Cert.KernelIdeal.Layer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibSageLayers Cert.LibGraphLayer

/-- The payload at entry (p, f): the rectified layer of row p of the two staged blocks. -/
theorem pay_apply (v0 v3 : Vec Ideal S2000x128 .f32) (v5 v8 : Vec Ideal S128x128 .f32) (v14 : Vec Ideal S1x128 .f32)
    (p : Fin 2000) (f : Fin 128) :
    k0_pay1 (F := Ideal) v0 v3 v5 v8 v14 (ix2 p f)
      = rectified (fun d => v0 (ix2 p d)) (fun d => v3 (ix2 p d)) (fun d f => v5 (ix2 d f)) (fun d f => v8 (ix2 d f))
          (fun f => v14 (ix2 0 f)) f := by
  unfold k0_pay1
  refine (rectified_kernel_apply dot_S2000x128_S128x128_S2000x128_1_0_0_1_n_n rfl _ _ _ _ v14 _ _ p f).trans ?_
  refine rectified_congr (fun d => ?_) (fun d => ?_) (fun d f => ?_) (fun d f => ?_) (fun f => rfl) f
  · exact congrFun (shapeCast_self v0 shapeCasts_S2000x128_S2000x128) (ix2 p d)
  · rfl
  · exact congrFun (shapeCast_self v5 shapeCasts_S128x128_S128x128) (ix2 d f)
  · exact congrFun (shapeCast_self v8 shapeCasts_S128x128_S128x128) (ix2 d f)

/-- One entry of a block against one entry of the layer's whole array: when row (y 0) of the two staged blocks is
    row (i 0) of the two arrays, the staged weights and bias are the arrays', and the columns agree, the payload at y
    is the layer's array at i. -/
theorem block_entry (A X : FVec Ideal S50000x128 .f32) (Wl Wr : FVec Ideal S128x128 .f32) (b : FVec Ideal S1x128 .f32)
    (x0 x1 : Vec Ideal S2000x128 .f32) (x2 x3 : Vec Ideal S128x128 .f32) (x4 : Vec Ideal S1x128 .f32)
    (y : S2000x128.Idx) (i : S50000x128.Idx)
    (h0 : ∀ d : Fin 128, x0 (ix2 (y 0) d) = A (ix2 (i 0) d))
    (h1 : ∀ d : Fin 128, x1 (ix2 (y 0) d) = X (ix2 (i 0) d))
    (h2 : ∀ d f : Fin 128, x2 (ix2 d f) = Wl (ix2 d f)) (h3 : ∀ d f : Fin 128, x3 (ix2 d f) = Wr (ix2 d f))
    (h4 : ∀ f : Fin 128, x4 (ix2 0 f) = b (ix2 0 f)) (hf : y 1 = i 1) :
    k0_pay1 (F := Ideal) x0 x1 x2 x3 x4 y = hiddenArr A X Wl Wr b i := by
  obtain ⟨p, f, rfl⟩ : ∃ (p : Fin 2000) (f : Fin 128), y = ix2 p f := ⟨y 0, y 1, eq_ix2 y⟩
  obtain ⟨r, g, rfl⟩ : ∃ (r : Fin 50000) (g : Fin 128), i = ix2 r g := ⟨i 0, i 1, eq_ix2 i⟩
  have hfg : f = g := hf
  subst hfg
  rw [pay_apply, hiddenArr_apply]
  exact rectified_congr h0 h1 h2 h3 h4 f

theorem hz : (![0, 0] : Fin 2 → Nat) = fun _ => 0 := funext fun a => by fin_cases a <;> rfl

/-- The printed index maps over the 25 points: the two row-blocked inputs move with the output, the weights and the
    bias stay at block (0, 0), and the output's block at point t is (t, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every one of the 25 row blocks is some point's. -/
theorem idx_onto : ∀ q : Fin 25, ∃ t : Fin cfg0.N, win0_5.index t (0 : Fin 2) = q.val ∧ win0_5.index t (1 : Fin 2) = 0 :=
  (by decide +kernel : ∀ q : Fin 25, ∃ t : Fin grid0.N, win0_5.index t (0 : Fin 2) = q.val ∧ win0_5.index t (1 : Fin 2) = 0)

section
variable (V : (c : Dev nD) → (b : Ref sig .tc) → Buf (Elt Ideal) ((c : Thread nD τ).loc b))

/-- What point t writes back is block t of the layer's array of the arrays the launch finds. -/
theorem flushed_eq (c : Dev nD) (t : Fin cfg0.N) :
    (dat0 (F := Ideal) V c).flushed 5 t = ((cfg0.win 5).blk t).view.read (Elt Ideal)
      (hiddenArr (V c main_v16) (V c main_arg0) (V c main_v17) (V c main_v18) (V c main_v19)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = hiddenArr (V c main_v16) (V c main_arg0) (V c main_v17) (V c main_v18) (V c main_v19) (((cfg0.win 5).blk t).view.emb j)
  refine block_entry (V c main_v16) (V c main_arg0) (V c main_v17) (V c main_v18) (V c main_v19)
    (iblk0 V c 0 t) (iblk0 V c 1 t) (iblk0 V c 2 t) (iblk0 V c 3 t) (iblk0 V c 4 t) j (((cfg0.win 5).blk t).view.emb j)
    (fun d => ?_) (fun d => ?_) (fun d f => ?_) (fun d f => ?_) (fun f => ?_) ?_
  · show V c main_v16 (((cfg0.win 0).blk t).view.emb (ix2 (j 0) d)) = V c main_v16 (ix2 ((((cfg0.win 5).blk t).view.emb j) 0) d)
    refine congrArg (V c main_v16) ?_
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * d.val = d.val; omega
  · show V c main_arg0 (((cfg0.win 1).blk t).view.emb (ix2 (j 0) d)) = V c main_arg0 (ix2 ((((cfg0.win 5).blk t).view.emb j) 0) d)
    refine congrArg (V c main_arg0) ?_
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * d.val = d.val; omega
  · show V c main_v17 (((cfg0.win 2).blk t).view.emb (ix2 d f)) = V c main_v17 (ix2 d f)
    refine congrArg (V c main_v17) ?_
    funext a; apply Fin.ext
    match a with
    | ⟨0, _⟩ => show win0_2.index t (0 : Fin 2) * 128 + 1 * d.val = d.val; omega
    | ⟨1, _⟩ => show win0_2.index t (1 : Fin 2) * 128 + 1 * f.val = f.val; omega
  · show V c main_v18 (((cfg0.win 3).blk t).view.emb (ix2 d f)) = V c main_v18 (ix2 d f)
    refine congrArg (V c main_v18) ?_
    funext a; apply Fin.ext
    match a with
    | ⟨0, _⟩ => show win0_3.index t (0 : Fin 2) * 128 + 1 * d.val = d.val; omega
    | ⟨1, _⟩ => show win0_3.index t (1 : Fin 2) * 128 + 1 * f.val = f.val; omega
  · show V c main_v19 (((cfg0.win 4).blk t).view.emb (ix2 0 f)) = V c main_v19 (ix2 0 f)
    refine congrArg (V c main_v19) ?_
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * f.val = f.val; omega
  · apply Fin.ext
    show (j 1).val = win0_5.index t (1 : Fin 2) * 128 + 1 * (j 1).val
    omega

/-- An index of the result array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- The 25 blocks tile the array: row r is in block r / 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, q0, q1⟩ := idx_onto ⟨(i 0).val / 2000, by omega⟩
  have q0' : win0_5.index t (0 : Fin 2) = (i 0).val / 2000 := q0
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the launch: the layer's array of the arrays the launch finds. -/
theorem final (c : Dev nD) : (dat0 (F := Ideal) V c).arrAt 5 cfg0.N
    = hiddenArr (V c main_v16) (V c main_arg0) (V c main_v17) (V c main_v18) (V c main_v19) :=
  (dat0 (F := Ideal) V c).arrAt_eq_of_cover 5 _ (fun t _ => flushed_eq V c t) cover

end

end Cert.KernelIdeal.Layer0

end
-- ==== Proof.Region1.lean ====
/-
  Launch 1 of the layer kernel, as one function of the arrays it finds.

  The launch walks 25 grid points; point t stages rows 2000·t … 2000·t + 1999 of the aggregated features and of the
  node features, the two [128, 128] weight matrices and the [1, 128] bias row whole, and writes back rows
  2000·t … 2000·t + 1999 of the result.  On the extended reals the body's payload at (p, f) is the rectified layer of
  row p of the two staged blocks (a change of float format is the identity, a product accumulated into zero is the
  plain sum of products).  Row p of block t is row 2000·t + p of the array, so what point t writes back is block t of
  the layer's whole array; the 25 blocks tile the 50000 rows, so the result array ends holding the layer's array.
-/
import proofs.«174606_j17231408791768_2_alg».proof.Proof.KernelIdealFrameP
import proofs.«174606_j17231408791768_2_alg».proof.Proof.LibGraphLayer

set_option maxRecDepth 16384

noncomputable section

namespace Cert.KernelIdeal.Layer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibSageLayers Cert.LibGraphLayer

/-- The payload at entry (p, f): the rectified layer of row p of the two staged blocks. -/
theorem pay_apply (v0 v3 : Vec Ideal S2000x128 .f32) (v5 v8 : Vec Ideal S128x128 .f32) (v14 : Vec Ideal S1x128 .f32)
    (p : Fin 2000) (f : Fin 128) :
    k1_pay1 (F := Ideal) v0 v3 v5 v8 v14 (ix2 p f)
      = rectified (fun d => v0 (ix2 p d)) (fun d => v3 (ix2 p d)) (fun d f => v5 (ix2 d f)) (fun d f => v8 (ix2 d f))
          (fun f => v14 (ix2 0 f)) f := by
  unfold k1_pay1
  refine (rectified_kernel_apply dot_S2000x128_S128x128_S2000x128_1_0_0_1_n_n rfl _ _ _ _ v14 _ _ p f).trans ?_
  refine rectified_congr (fun d => ?_) (fun d => ?_) (fun d f => ?_) (fun d f => ?_) (fun f => rfl) f
  · exact congrFun (shapeCast_self v0 shapeCasts_S2000x128_S2000x128) (ix2 p d)
  · exact congrFun (shapeCast_self v3 shapeCasts_S2000x128_S2000x128) (ix2 p d)
  · exact congrFun (shapeCast_self v5 shapeCasts_S128x128_S128x128) (ix2 d f)
  · exact congrFun (shapeCast_self v8 shapeCasts_S128x128_S128x128) (ix2 d f)

/-- One entry of a block against one entry of the layer's whole array: when row (y 0) of the two staged blocks is
    row (i 0) of the two arrays, the staged weights and bias are the arrays', and the columns agree, the payload at y
    is the layer's array at i. -/
theorem block_entry (A X : FVec Ideal S50000x128 .f32) (Wl Wr : FVec Ideal S128x128 .f32) (b : FVec Ideal S1x128 .f32)
    (x0 x1 : Vec Ideal S2000x128 .f32) (x2 x3 : Vec Ideal S128x128 .f32) (x4 : Vec Ideal S1x128 .f32)
    (y : S2000x128.Idx) (i : S50000x128.Idx)
    (h0 : ∀ d : Fin 128, x0 (ix2 (y 0) d) = A (ix2 (i 0) d))
    (h1 : ∀ d : Fin 128, x1 (ix2 (y 0) d) = X (ix2 (i 0) d))
    (h2 : ∀ d f : Fin 128, x2 (ix2 d f) = Wl (ix2 d f)) (h3 : ∀ d f : Fin 128, x3 (ix2 d f) = Wr (ix2 d f))
    (h4 : ∀ f : Fin 128, x4 (ix2 0 f) = b (ix2 0 f)) (hf : y 1 = i 1) :
    k1_pay1 (F := Ideal) x0 x1 x2 x3 x4 y = hiddenArr A X Wl Wr b i := by
  obtain ⟨p, f, rfl⟩ : ∃ (p : Fin 2000) (f : Fin 128), y = ix2 p f := ⟨y 0, y 1, eq_ix2 y⟩
  obtain ⟨r, g, rfl⟩ : ∃ (r : Fin 50000) (g : Fin 128), i = ix2 r g := ⟨i 0, i 1, eq_ix2 i⟩
  have hfg : f = g := hf
  subst hfg
  rw [pay_apply, hiddenArr_apply]
  exact rectified_congr h0 h1 h2 h3 h4 f

theorem hz : (![0, 0] : Fin 2 → Nat) = fun _ => 0 := funext fun a => by fin_cases a <;> rfl

/-- The printed index maps over the 25 points: the two row-blocked inputs move with the output, the weights and the
    bias stay at block (0, 0), and the output's block at point t is (t, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every one of the 25 row blocks is some point's. -/
theorem idx_onto : ∀ q : Fin 25, ∃ t : Fin cfg1.N, win1_5.index t (0 : Fin 2) = q.val ∧ win1_5.index t (1 : Fin 2) = 0 :=
  (by decide +kernel : ∀ q : Fin 25, ∃ t : Fin grid1.N, win1_5.index t (0 : Fin 2) = q.val ∧ win1_5.index t (1 : Fin 2) = 0)

section
variable (V : (c : Dev nD) → (b : Ref sig .tc) → Buf (Elt Ideal) ((c : Thread nD τ).loc b))

/-- What point t writes back is block t of the layer's array of the arrays the launch finds. -/
theorem flushed_eq (c : Dev nD) (t : Fin cfg1.N) :
    (dat1 (F := Ideal) V c).flushed 5 t = ((cfg1.win 5).blk t).view.read (Elt Ideal)
      (hiddenArr (V c main_v33) (V c main_v20) (V c main_v34) (V c main_v35) (V c main_v36)) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = hiddenArr (V c main_v33) (V c main_v20) (V c main_v34) (V c main_v35) (V c main_v36) (((cfg1.win 5).blk t).view.emb j)
  refine block_entry (V c main_v33) (V c main_v20) (V c main_v34) (V c main_v35) (V c main_v36)
    (iblk1 V c 0 t) (iblk1 V c 1 t) (iblk1 V c 2 t) (iblk1 V c 3 t) (iblk1 V c 4 t) j (((cfg1.win 5).blk t).view.emb j)
    (fun d => ?_) (fun d => ?_) (fun d f => ?_) (fun d f => ?_) (fun f => ?_) ?_
  · show V c main_v33 (((cfg1.win 0).blk t).view.emb (ix2 (j 0) d)) = V c main_v33 (ix2 ((((cfg1.win 5).blk t).view.emb j) 0) d)
    refine congrArg (V c main_v33) ?_
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * d.val = d.val; omega
  · show V c main_v20 (((cfg1.win 1).blk t).view.emb (ix2 (j 0) d)) = V c main_v20 (ix2 ((((cfg1.win 5).blk t).view.emb j) 0) d)
    refine congrArg (V c main_v20) ?_
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * d.val = d.val; omega
  · show V c main_v34 (((cfg1.win 2).blk t).view.emb (ix2 d f)) = V c main_v34 (ix2 d f)
    refine congrArg (V c main_v34) ?_
    funext a; apply Fin.ext
    match a with
    | ⟨0, _⟩ => show win1_2.index t (0 : Fin 2) * 128 + 1 * d.val = d.val; omega
    | ⟨1, _⟩ => show win1_2.index t (1 : Fin 2) * 128 + 1 * f.val = f.val; omega
  · show V c main_v35 (((cfg1.win 3).blk t).view.emb (ix2 d f)) = V c main_v35 (ix2 d f)
    refine congrArg (V c main_v35) ?_
    funext a; apply Fin.ext
    match a with
    | ⟨0, _⟩ => show win1_3.index t (0 : Fin 2) * 128 + 1 * d.val = d.val; omega
    | ⟨1, _⟩ => show win1_3.index t (1 : Fin 2) * 128 + 1 * f.val = f.val; omega
  · show V c main_v36 (((cfg1.win 4).blk t).view.emb (ix2 0 f)) = V c main_v36 (ix2 0 f)
    refine congrArg (V c main_v36) ?_
    funext a; apply Fin.ext
    match a with
    | ⟨0, _⟩ => show win1_4.index t (0 : Fin 2) * 1 + 1 * (0 : Fin 1).val = (0 : Fin 1).val; omega
    | ⟨1, _⟩ => show win1_4.index t (1 : Fin 2) * 128 + 1 * f.val = f.val; omega
  · apply Fin.ext
    show (j 1).val = win1_5.index t (1 : Fin 2) * 128 + 1 * (j 1).val
    omega

/-- An index of the result array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v37).slice (win1_5.rect t)).set ↔ _
  rw [View.set_slice_whole, Rect.mem_set_unit]
  exact Iff.rfl

/-- The 25 blocks tile the array: row r is in block r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, q0, q1⟩ := idx_onto ⟨(i 0).val / 2000, by omega⟩
  have q0' : win1_5.index t (0 : Fin 2) = (i 0).val / 2000 := q0
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The result array after the launch: the layer's array of the arrays the launch finds. -/
theorem final (c : Dev nD) : (dat1 (F := Ideal) V c).arrAt 5 cfg1.N
    = hiddenArr (V c main_v33) (V c main_v20) (V c main_v34) (V c main_v35) (V c main_v36) :=
  (dat1 (F := Ideal) V c).arrAt_eq_of_cover 5 _ (fun t _ => flushed_eq V c t) cover

end

end Cert.KernelIdeal.Layer1

end
-- ==== Proof.Region2.lean ====
/-
  Launch 2 of the layer kernel, as one function of the arrays it finds.

  The launch walks 25 grid points; point t stages rows 2000·t … 2000·t + 1999 of the aggregated features and of the
  node features, the two [128, 128] weight matrices and the [1, 128] bias row whole, and writes back rows
  2000·t … 2000·t + 1999 of the result.  On the extended reals the body's payload at (p, f) is the layer of
  row p of the two staged blocks (a change of float format is the identity, a product accumulated into zero is the
  plain sum of products).  Row p of block t is row 2000·t + p of the array, so what point t writes back is block t of
  the layer's whole array; the 25 blocks tile the 50000 rows, so the result array ends holding the layer's array.
-/
import proofs.«174606_j17231408791768_2_alg».proof.Proof.KernelIdealFrameP
import proofs.«174606_j17231408791768_2_alg».proof.Proof.LibGraphLayer

set_option maxRecDepth 16384

noncomputable section

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibSageLayers Cert.LibGraphLayer

/-- The payload at entry (p, f): the layer of row p of the two staged blocks. -/
theorem pay_apply (v0 v3 : Vec Ideal S2000x128 .f32) (v5 v8 : Vec Ideal S128x128 .f32) (v14 : Vec Ideal S1x128 .f32)
    (p : Fin 2000) (f : Fin 128) :
    k2_pay1 (F := Ideal) v0 v3 v5 v8 v14 (ix2 p f)
      = pre (fun d => v0 (ix2 p d)) (fun d => v3 (ix2 p d)) (fun d f => v5 (ix2 d f)) (fun d f => v8 (ix2 d f))
          (fun f => v14 (ix2 0 f)) f := by
  unfold k2_pay1
  refine (pre_kernel_apply dot_S2000x128_S128x128_S2000x128_1_0_0_1_n_n rfl _ _ _ _ v14 _ _ p f).trans ?_
  refine pre_congr (fun d => ?_) (fun d => ?_) (fun d f => ?_) (fun d f => ?_) (fun f => rfl) f
  · exact congrFun (shapeCast_self v0 shapeCasts_S2000x128_S2000x128) (ix2 p d)
  · exact congrFun (shapeCast_self v3 shapeCasts_S2000x128_S2000x128) (ix2 p d)
  · exact congrFun (shapeCast_self v5 shapeCasts_S128x128_S128x128) (ix2 d f)
  · exact congrFun (shapeCast_self v8 shapeCasts_S128x128_S128x128) (ix2 d f)

/-- One entry of a block against one entry of the layer's whole array: when row (y 0) of the two staged blocks is
    row (i 0) of the two arrays, the staged weights and bias are the arrays', and the columns agree, the payload at y
    is the layer's array at i. -/
theorem block_entry (A X : FVec Ideal S50000x128 .f32) (Wl Wr : FVec Ideal S128x128 .f32) (b : FVec Ideal S1x128 .f32)
    (x0 x1 : Vec Ideal S2000x128 .f32) (x2 x3 : Vec Ideal S128x128 .f32) (x4 : Vec Ideal S1x128 .f32)
    (y : S2000x128.Idx) (i : S50000x128.Idx)
    (h0 : ∀ d : Fin 128, x0 (ix2 (y 0) d) = A (ix2 (i 0) d))
    (h1 : ∀ d : Fin 128, x1 (ix2 (y 0) d) = X (ix2 (i 0) d))
    (h2 : ∀ d f : Fin 128, x2 (ix2 d f) = Wl (ix2 d f)) (h3 : ∀ d f : Fin 128, x3 (ix2 d f) = Wr (ix2 d f))
    (h4 : ∀ f : Fin 128, x4 (ix2 0 f) = b (ix2 0 f)) (hf : y 1 = i 1) :
    k2_pay1 (F := Ideal) x0 x1 x2 x3 x4 y = linearArr A X Wl Wr b i := by
  obtain ⟨p, f, rfl⟩ : ∃ (p : Fin 2000) (f : Fin 128), y = ix2 p f := ⟨y 0, y 1, eq_ix2 y⟩
  obtain ⟨r, g, rfl⟩ : ∃ (r : Fin 50000) (g : Fin 128), i = ix2 r g := ⟨i 0, i 1, eq_ix2 i⟩
  have hfg : f = g := hf
  subst hfg
  rw [pay_apply, linearArr_apply]
  exact pre_congr h0 h1 h2 h3 h4 f

theorem hz : (![0, 0] : Fin 2 → Nat) = fun _ => 0 := funext fun a => by fin_cases a <;> rfl

/-- The printed index maps over the 25 points: the two row-blocked inputs move with the output, the weights and the
    bias stay at block (0, 0), and the output's block at point t is (t, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every one of the 25 row blocks is some point's. -/
theorem idx_onto : ∀ q : Fin 25, ∃ t : Fin cfg2.N, win2_5.index t (0 : Fin 2) = q.val ∧ win2_5.index t (1 : Fin 2) = 0 :=
  (by decide +kernel : ∀ q : Fin 25, ∃ t : Fin grid2.N, win2_5.index t (0 : Fin 2) = q.val ∧ win2_5.index t (1 : Fin 2) = 0)

section
variable (V : (c : Dev nD) → (b : Ref sig .tc) → Buf (Elt Ideal) ((c : Thread nD τ).loc b))

/-- What point t writes back is block t of the layer's array of the arrays the launch finds. -/
theorem flushed_eq (c : Dev nD) (t : Fin cfg2.N) :
    (dat2 (F := Ideal) V c).flushed 5 t = ((cfg2.win 5).blk t).view.read (Elt Ideal)
      (linearArr (V c main_v50) (V c main_v37) (V c main_v51) (V c main_v52) (V c main_v53)) := by
  show (cfg2.win 5).cut (grid2.coords t) ((dat2 (F := Ideal) V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  show k2_pay1 (F := Ideal) (iblk2 V c 0 t) (iblk2 V c 1 t) (iblk2 V c 2 t) (iblk2 V c 3 t) (iblk2 V c 4 t) j
    = linearArr (V c main_v50) (V c main_v37) (V c main_v51) (V c main_v52) (V c main_v53) (((cfg2.win 5).blk t).view.emb j)
  refine block_entry (V c main_v50) (V c main_v37) (V c main_v51) (V c main_v52) (V c main_v53)
    (iblk2 V c 0 t) (iblk2 V c 1 t) (iblk2 V c 2 t) (iblk2 V c 3 t) (iblk2 V c 4 t) j (((cfg2.win 5).blk t).view.emb j)
    (fun d => ?_) (fun d => ?_) (fun d f => ?_) (fun d f => ?_) (fun f => ?_) ?_
  · show V c main_v50 (((cfg2.win 0).blk t).view.emb (ix2 (j 0) d)) = V c main_v50 (ix2 ((((cfg2.win 5).blk t).view.emb j) 0) d)
    refine congrArg (V c main_v50) ?_
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * d.val = d.val; omega
  · show V c main_v37 (((cfg2.win 1).blk t).view.emb (ix2 (j 0) d)) = V c main_v37 (ix2 ((((cfg2.win 5).blk t).view.emb j) 0) d)
    refine congrArg (V c main_v37) ?_
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * d.val = d.val; omega
  · show V c main_v51 (((cfg2.win 2).blk t).view.emb (ix2 d f)) = V c main_v51 (ix2 d f)
    refine congrArg (V c main_v51) ?_
    funext a; apply Fin.ext
    match a with
    | ⟨0, _⟩ => show win2_2.index t (0 : Fin 2) * 128 + 1 * d.val = d.val; omega
    | ⟨1, _⟩ => show win2_2.index t (1 : Fin 2) * 128 + 1 * f.val = f.val; omega
  · show V c main_v52 (((cfg2.win 3).blk t).view.emb (ix2 d f)) = V c main_v52 (ix2 d f)
    refine congrArg (V c main_v52) ?_
    funext a; apply Fin.ext
    match a with
    | ⟨0, _⟩ => show win2_3.index t (0 : Fin 2) * 128 + 1 * d.val = d.val; omega
    | ⟨1, _⟩ => show win2_3.index t (1 : Fin 2) * 128 + 1 * f.val = f.val; omega
  · show V c main_v53 (((cfg2.win 4).blk t).view.emb (ix2 0 f)) = V c main_v53 (ix2 0 f)
    refine congrArg (V c main_v53) ?_
    funext a; apply Fin.ext
    match a with
    | ⟨0, _⟩ => show win2_4.index t (0 : Fin 2) * 1 + 1 * (0 : Fin 1).val = (0 : Fin 1).val; omega
    | ⟨1, _⟩ => show win2_4.index t (1 : Fin 2) * 128 + 1 * f.val = f.val; omega
  · apply Fin.ext
    show (j 1).val = win2_5.index t (1 : Fin 2) * 128 + 1 * (j 1).val
    omega

/-- An index of the result array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v54).slice (win2_5.rect t)).set ↔ _
  rw [View.set_slice_whole, Rect.mem_set_unit]
  exact Iff.rfl

/-- The 25 blocks tile the array: row r is in block r / 2000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, q0, q1⟩ := idx_onto ⟨(i 0).val / 2000, by omega⟩
  have q0' : win2_5.index t (0 : Fin 2) = (i 0).val / 2000 := q0
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The result array after the launch: the layer's array of the arrays the launch finds. -/
theorem final (c : Dev nD) : (dat2 (F := Ideal) V c).arrAt 5 cfg2.N
    = linearArr (V c main_v50) (V c main_v37) (V c main_v51) (V c main_v52) (V c main_v53) :=
  (dat2 (F := Ideal) V c).arrAt_eq_of_cover 5 _ (fun t _ => flushed_eq V c t) cover

end

end Cert.KernelIdeal.Layer2

end
-- ==== Proof.GraphNet.lean ====
/-
  The three-layer graph convolution as one function of the twelve arguments.

  An edge e goes from node src e to node dst e (rows 0 and 1 of the [2, E] index array) and carries the weight ew e.
  A layer first aggregates: node i receives the sum over the edges into i of ew e times the features of src e — as the
  host computes it, a gather of the source rows (a negative source index read 50000 further on), each row scaled by its
  edge's weight, scatter-added into a zero array at the target rows.  Then every node goes through the dense layer
  (agg · Wrelᵀ + h · Wrootᵀ) + b.  Layers one and two are rectified, layer three is not.  The aggregation and the
  transposition of a weight matrix are kept as the host spells them and are never opened: both programs apply the
  same operations there, so they are compared as terms.
-/
import proofs.«174606_j17231408791768_2_alg».proof.ReferenceIdeal
import proofs.«174606_j17231408791768_2_alg».proof.Proof.Gen.ReferenceIdeal
import proofs.«174606_j17231408791768_2_alg».proof.Proof.LibGraphLayer

noncomputable section

namespace Cert.GraphNet

open Idealize.ShloMosaic Idealize.ShloMosaic.ValueIdx Cert.ReferenceIdeal Cert.ReferenceIdeal.Facts₀ Cert.LibSageLayers Cert.LibGraphLayer

variable {F : FTy → Type} [FloatOps F]

/-- The edges' source nodes: row 0 of the index array, as a vector. -/
def src (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' target nodes: row 1 of the index array, as a vector. -/
def dst (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The aggregated neighbour features of every node, from the node features h, the source and target vectors and the
    edge weights: gather the source rows, scale each by its edge's weight, scatter-add at the target rows into zero. -/
def aggregate (h : (⟨S50000x128, .f32⟩ : BufTy).Contents (Elt F)) (s d : (⟨S800000, .i32⟩ : BufTy).Contents (Elt F))
    (ew : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)))
      (broadcastInDim S800000x128 ![0, 1] bcast_S800000x1_S800000x128_0_1
        (broadcastInDim S800000x1 ![0] bcast_S800000_S800000x1_0 ew)))

/-- A weight matrix transposed, as the host spells it. -/
def tr (w : (⟨S128x128, .f32⟩ : BufTy).Contents (Elt F)) : (⟨S128x128, .f32⟩ : BufTy).Contents (Elt F) :=
  transpose S128x128 [1, 0] w transposes_S128x128_S128x128_1_0

/-- A rectified layer of the network. -/
def hidden (h : FVec Ideal S50000x128 .f32) (ei : (⟨S2x800000, .i32⟩ : BufTy).Contents (Elt Ideal))
    (ew : FVec Ideal S800000 .f32) (wrel wroot : FVec Ideal S128x128 .f32) (b : FVec Ideal S128 .f32) :
    FVec Ideal S50000x128 .f32 :=
  hiddenArr (aggregate (F := Ideal) h (src ei) (dst ei) ew) h (tr (F := Ideal) wrel) (tr (F := Ideal) wroot) (rowOf b)

/-- The last layer of the network: not rectified. -/
def output (h : FVec Ideal S50000x128 .f32) (ei : (⟨S2x800000, .i32⟩ : BufTy).Contents (Elt Ideal))
    (ew : FVec Ideal S800000 .f32) (wrel wroot : FVec Ideal S128x128 .f32) (b : FVec Ideal S128 .f32) :
    FVec Ideal S50000x128 .f32 :=
  linearArr (aggregate (F := Ideal) h (src ei) (dst ei) ew) h (tr (F := Ideal) wrel) (tr (F := Ideal) wroot) (rowOf b)

/-- The network: two rectified layers and an un-rectified one over the same edges. -/
def net (x : FVec Ideal S50000x128 .f32) (ei : (⟨S2x800000, .i32⟩ : BufTy).Contents (Elt Ideal))
    (ew : FVec Ideal S800000 .f32) (w1rel w1root : FVec Ideal S128x128 .f32) (b1 : FVec Ideal S128 .f32)
    (w2rel w2root : FVec Ideal S128x128 .f32) (b2 : FVec Ideal S128 .f32)
    (w3rel w3root : FVec Ideal S128x128 .f32) (b3 : FVec Ideal S128 .f32) : FVec Ideal S50000x128 .f32 :=
  output (hidden (hidden x ei ew w1rel w1root b1) ei ew w2rel w2root b2) ei ew w3rel w3root b3

end Cert.GraphNet

end
-- ==== Proof.KernelNet.lean ====
/-
  What the idealized kernel leaves in its result buffer: the network of its arguments.

  The buffer contents at @main's six boundaries are a fold from the launch memory.  A stretch of host operations
  applies its operations in order: it aggregates the current features along the edges, transposes the layer's two
  weight matrices and recasts the bias vector to a row, all of this read off the operations themselves.  A launch
  leaves in its result array the dense layer of the five arrays it finds (Region0, Region1, Region2) and keeps every
  other buffer.  Walking the fold: the first launch leaves layer one of the input features, the second layer two of
  that, the third — un-rectified — layer three.  The source and target vectors, the edge weights and the later layers'
  parameters are computed or launched once and carried unchanged across the launches that do not touch them.
-/
import proofs.«174606_j17231408791768_2_alg».proof.Proof.KernelIdealFrameP
import proofs.«174606_j17231408791768_2_alg».proof.Proof.Region0
import proofs.«174606_j17231408791768_2_alg».proof.Proof.Region1
import proofs.«174606_j17231408791768_2_alg».proof.Proof.Region2
import proofs.«174606_j17231408791768_2_alg».proof.Proof.GraphNet
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Cert.LibSageLayers Cert.LibGraphLayer Cert.GraphNet

variable (m : (ℓ : Loc nD τ sig) → Buf (Elt Ideal) ℓ) (ρ : Dev nD → PrngReg) (c : Dev nD)

/-! ## At the first launch's entry: the first stretch of host operations, from the launch memory -/

/-- The aggregate of the input features. -/
theorem W1_agg : W1 m ρ c (Proc.devRef .tc main_v16) = aggregate (F := Ideal) (m ((c.tc : Thread nD τ).loc main_arg0)) (src (F := Ideal) (m ((c.tc : Thread nD τ).loc main_arg1))) (dst (F := Ideal) (m ((c.tc : Thread nD τ).loc main_arg1))) (m ((c.tc : Thread nD τ).loc main_arg2)) := by
  show StableHlo.after hostOps0 (W0 m ρ c) (Proc.devRef .tc main_v16) = _
  after_results_simp
  rfl
/-- The input features, as launched. -/
theorem W1_x : W1 m ρ c (Proc.devRef .tc main_arg0) = (m ((c.tc : Thread nD τ).loc main_arg0)) := by
  show StableHlo.after hostOps0 (W0 m ρ c) (Proc.devRef .tc main_arg0) = _
  after_results_simp
/-- Layer one's neighbour weights, transposed. -/
theorem W1_wl : W1 m ρ c (Proc.devRef .tc main_v17) = tr (F := Ideal) (m ((c.tc : Thread nD τ).loc main_arg3)) := by
  show StableHlo.after hostOps0 (W0 m ρ c) (Proc.devRef .tc main_v17) = _
  after_results_simp
  rfl
/-- Layer one's root weights, transposed. -/
theorem W1_wr : W1 m ρ c (Proc.devRef .tc main_v18) = tr (F := Ideal) (m ((c.tc : Thread nD τ).loc main_arg4)) := by
  show StableHlo.after hostOps0 (W0 m ρ c) (Proc.devRef .tc main_v18) = _
  after_results_simp
  rfl
/-- Layer one's bias, recast to a row. -/
theorem W1_b : W1 m ρ c (Proc.devRef .tc main_v19) = shapeCast S1x128 (m ((c.tc : Thread nD τ).loc main_arg5)) Facts₀.shapeCasts_S128_S1x128 := by
  show StableHlo.after hostOps0 (W0 m ρ c) (Proc.devRef .tc main_v19) = _
  after_results_simp
  rfl
/-- Carried: main_v1. -/
theorem W1_v1 : W1 m ρ c (Proc.devRef .tc main_v1) = src (F := Ideal) (m ((c.tc : Thread nD τ).loc main_arg1)) := by
  show StableHlo.after hostOps0 (W0 m ρ c) (Proc.devRef .tc main_v1) = _
  after_results_simp
  rfl
/-- Carried: main_v3. -/
theorem W1_v3 : W1 m ρ c (Proc.devRef .tc main_v3) = dst (F := Ideal) (m ((c.tc : Thread nD τ).loc main_arg1)) := by
  show StableHlo.after hostOps0 (W0 m ρ c) (Proc.devRef .tc main_v3) = _
  after_results_simp
  rfl
/-- Carried: main_arg2. -/
theorem W1_arg2 : W1 m ρ c (Proc.devRef .tc main_arg2) = (m ((c.tc : Thread nD τ).loc main_arg2)) := by
  show StableHlo.after hostOps0 (W0 m ρ c) (Proc.devRef .tc main_arg2) = _
  after_results_simp
/-- Carried: main_arg6. -/
theorem W1_arg6 : W1 m ρ c (Proc.devRef .tc main_arg6) = (m ((c.tc : Thread nD τ).loc main_arg6)) := by
  show StableHlo.after hostOps0 (W0 m ρ c) (Proc.devRef .tc main_arg6) = _
  after_results_simp
/-- Carried: main_arg7. -/
theorem W1_arg7 : W1 m ρ c (Proc.devRef .tc main_arg7) = (m ((c.tc : Thread nD τ).loc main_arg7)) := by
  show StableHlo.after hostOps0 (W0 m ρ c) (Proc.devRef .tc main_arg7) = _
  after_results_simp
/-- Carried: main_arg8. -/
theorem W1_arg8 : W1 m ρ c (Proc.devRef .tc main_arg8) = (m ((c.tc : Thread nD τ).loc main_arg8)) := by
  show StableHlo.after hostOps0 (W0 m ρ c) (Proc.devRef .tc main_arg8) = _
  after_results_simp
/-- Carried: main_arg9. -/
theorem W1_arg9 : W1 m ρ c (Proc.devRef .tc main_arg9) = (m ((c.tc : Thread nD τ).loc main_arg9)) := by
  show StableHlo.after hostOps0 (W0 m ρ c) (Proc.devRef .tc main_arg9) = _
  after_results_simp
/-- Carried: main_arg10. -/
theorem W1_arg10 : W1 m ρ c (Proc.devRef .tc main_arg10) = (m ((c.tc : Thread nD τ).loc main_arg10)) := by
  show StableHlo.after hostOps0 (W0 m ρ c) (Proc.devRef .tc main_arg10) = _
  after_results_simp
/-- Carried: main_arg11. -/
theorem W1_arg11 : W1 m ρ c (Proc.devRef .tc main_arg11) = (m ((c.tc : Thread nD τ).loc main_arg11)) := by
  show StableHlo.after hostOps0 (W0 m ρ c) (Proc.devRef .tc main_arg11) = _
  after_results_simp

/-! ## After the first launch -/

/-- The first launch leaves layer one of the input in its result array. -/
theorem W2_h : W2 m ρ c (Proc.devRef .tc main_v20) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 5).trans ((Layer0.final (V1 m ρ) c).trans ?_)
  show hiddenArr (W1 m ρ c (Proc.devRef .tc main_v16)) (W1 m ρ c (Proc.devRef .tc main_arg0)) (W1 m ρ c (Proc.devRef .tc main_v17)) (W1 m ρ c (Proc.devRef .tc main_v18)) (W1 m ρ c (Proc.devRef .tc main_v19)) = _
  rw [W1_agg m ρ c, W1_x m ρ c, W1_wl m ρ c, W1_wr m ρ c, W1_b m ρ c, shapeCast_eq_rowOf]
  rfl
theorem W2_v1 : W2 m ρ c (Proc.devRef .tc main_v1) = src (F := Ideal) (m ((c.tc : Thread nD τ).loc main_arg1)) :=
  (W2_of_ne m ρ c main_v1 (by decide)).trans (W1_v1 m ρ c)
theorem W2_v3 : W2 m ρ c (Proc.devRef .tc main_v3) = dst (F := Ideal) (m ((c.tc : Thread nD τ).loc main_arg1)) :=
  (W2_of_ne m ρ c main_v3 (by decide)).trans (W1_v3 m ρ c)
theorem W2_arg2 : W2 m ρ c (Proc.devRef .tc main_arg2) = (m ((c.tc : Thread nD τ).loc main_arg2)) :=
  (W2_of_ne m ρ c main_arg2 (by decide)).trans (W1_arg2 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)
theorem W2_arg8 : W2 m ρ c (Proc.devRef .tc main_arg8) = (m ((c.tc : Thread nD τ).loc main_arg8)) :=
  (W2_of_ne m ρ c main_arg8 (by decide)).trans (W1_arg8 m ρ c)
theorem W2_arg9 : W2 m ρ c (Proc.devRef .tc main_arg9) = (m ((c.tc : Thread nD τ).loc main_arg9)) :=
  (W2_of_ne m ρ c main_arg9 (by decide)).trans (W1_arg9 m ρ c)
theorem W2_arg10 : W2 m ρ c (Proc.devRef .tc main_arg10) = (m ((c.tc : Thread nD τ).loc main_arg10)) :=
  (W2_of_ne m ρ c main_arg10 (by decide)).trans (W1_arg10 m ρ c)
theorem W2_arg11 : W2 m ρ c (Proc.devRef .tc main_arg11) = (m ((c.tc : Thread nD τ).loc main_arg11)) :=
  (W2_of_ne m ρ c main_arg11 (by decide)).trans (W1_arg11 m ρ c)

/-! ## At the second launch's entry: the second stretch of host operations -/

/-- The aggregate of layer one. -/
theorem W3_agg : W3 m ρ c (Proc.devRef .tc main_v33) = aggregate (F := Ideal) (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (src (F := Ideal) (m ((c.tc : Thread nD τ).loc main_arg1))) (dst (F := Ideal) (m ((c.tc : Thread nD τ).loc main_arg1))) (m ((c.tc : Thread nD τ).loc main_arg2)) := by
  show StableHlo.after hostOps1 (W2 m ρ c) (Proc.devRef .tc main_v33) = _
  after_results_simp
  rw [W2_h m ρ c, W2_v1 m ρ c, W2_v3 m ρ c, W2_arg2 m ρ c]
  rfl
/-- Layer one, as the first launch left it. -/
theorem W3_x : W3 m ρ c (Proc.devRef .tc main_v20) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v20) = _
  after_results_simp
  rw [W2_h m ρ c]
/-- Layer two's neighbour weights, transposed. -/
theorem W3_wl : W3 m ρ c (Proc.devRef .tc main_v34) = tr (F := Ideal) (m ((c.tc : Thread nD τ).loc main_arg6)) := by
  show StableHlo.after hostOps1 (W2 m ρ c) (Proc.devRef .tc main_v34) = _
  after_results_simp
  rw [W2_arg6 m ρ c]
  rfl
/-- Layer two's root weights, transposed. -/
theorem W3_wr : W3 m ρ c (Proc.devRef .tc main_v35) = tr (F := Ideal) (m ((c.tc : Thread nD τ).loc main_arg7)) := by
  show StableHlo.after hostOps1 (W2 m ρ c) (Proc.devRef .tc main_v35) = _
  after_results_simp
  rw [W2_arg7 m ρ c]
  rfl
/-- Layer two's bias, recast to a row. -/
theorem W3_b : W3 m ρ c (Proc.devRef .tc main_v36) = shapeCast S1x128 (m ((c.tc : Thread nD τ).loc main_arg8)) Facts₀.shapeCasts_S128_S1x128 := by
  show StableHlo.after hostOps1 (W2 m ρ c) (Proc.devRef .tc main_v36) = _
  after_results_simp
  rw [W2_arg8 m ρ c]
  rfl
/-- Carried: main_v1. -/
theorem W3_v1 : W3 m ρ c (Proc.devRef .tc main_v1) = src (F := Ideal) (m ((c.tc : Thread nD τ).loc main_arg1)) := by
  show StableHlo.after hostOps1 (W2 m ρ c) (Proc.devRef .tc main_v1) = _
  after_results_simp
  rw [W2_v1 m ρ c]
/-- Carried: main_v3. -/
theorem W3_v3 : W3 m ρ c (Proc.devRef .tc main_v3) = dst (F := Ideal) (m ((c.tc : Thread nD τ).loc main_arg1)) := by
  show StableHlo.after hostOps1 (W2 m ρ c) (Proc.devRef .tc main_v3) = _
  after_results_simp
  rw [W2_v3 m ρ c]
/-- Carried: main_arg2. -/
theorem W3_arg2 : W3 m ρ c (Proc.devRef .tc main_arg2) = (m ((c.tc : Thread nD τ).loc main_arg2)) := by
  show StableHlo.after hostOps1 (W2 m ρ c) (Proc.devRef .tc main_arg2) = _
  after_results_simp
  rw [W2_arg2 m ρ c]
/-- Carried: main_arg9. -/
theorem W3_arg9 : W3 m ρ c (Proc.devRef .tc main_arg9) = (m ((c.tc : Thread nD τ).loc main_arg9)) := by
  show StableHlo.after hostOps1 (W2 m ρ c) (Proc.devRef .tc main_arg9) = _
  after_results_simp
  rw [W2_arg9 m ρ c]
/-- Carried: main_arg10. -/
theorem W3_arg10 : W3 m ρ c (Proc.devRef .tc main_arg10) = (m ((c.tc : Thread nD τ).loc main_arg10)) := by
  show StableHlo.after hostOps1 (W2 m ρ c) (Proc.devRef .tc main_arg10) = _
  after_results_simp
  rw [W2_arg10 m ρ c]
/-- Carried: main_arg11. -/
theorem W3_arg11 : W3 m ρ c (Proc.devRef .tc main_arg11) = (m ((c.tc : Thread nD τ).loc main_arg11)) := by
  show StableHlo.after hostOps1 (W2 m ρ c) (Proc.devRef .tc main_arg11) = _
  after_results_simp
  rw [W2_arg11 m ρ c]

/-! ## After the second launch -/

/-- The second launch leaves layer two in its result array. -/
theorem W4_h : W4 m ρ c (Proc.devRef .tc main_v37) = hidden (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) := by
  refine (W4_arr m ρ c 5).trans ((Layer1.final (V3 m ρ) c).trans ?_)
  show hiddenArr (W3 m ρ c (Proc.devRef .tc main_v33)) (W3 m ρ c (Proc.devRef .tc main_v20)) (W3 m ρ c (Proc.devRef .tc main_v34)) (W3 m ρ c (Proc.devRef .tc main_v35)) (W3 m ρ c (Proc.devRef .tc main_v36)) = _
  rw [W3_agg m ρ c, W3_x m ρ c, W3_wl m ρ c, W3_wr m ρ c, W3_b m ρ c, shapeCast_eq_rowOf]
  rfl
theorem W4_v1 : W4 m ρ c (Proc.devRef .tc main_v1) = src (F := Ideal) (m ((c.tc : Thread nD τ).loc main_arg1)) :=
  (W4_of_ne m ρ c main_v1 (by decide)).trans (W3_v1 m ρ c)
theorem W4_v3 : W4 m ρ c (Proc.devRef .tc main_v3) = dst (F := Ideal) (m ((c.tc : Thread nD τ).loc main_arg1)) :=
  (W4_of_ne m ρ c main_v3 (by decide)).trans (W3_v3 m ρ c)
theorem W4_arg2 : W4 m ρ c (Proc.devRef .tc main_arg2) = (m ((c.tc : Thread nD τ).loc main_arg2)) :=
  (W4_of_ne m ρ c main_arg2 (by decide)).trans (W3_arg2 m ρ c)
theorem W4_arg9 : W4 m ρ c (Proc.devRef .tc main_arg9) = (m ((c.tc : Thread nD τ).loc main_arg9)) :=
  (W4_of_ne m ρ c main_arg9 (by decide)).trans (W3_arg9 m ρ c)
theorem W4_arg10 : W4 m ρ c (Proc.devRef .tc main_arg10) = (m ((c.tc : Thread nD τ).loc main_arg10)) :=
  (W4_of_ne m ρ c main_arg10 (by decide)).trans (W3_arg10 m ρ c)
theorem W4_arg11 : W4 m ρ c (Proc.devRef .tc main_arg11) = (m ((c.tc : Thread nD τ).loc main_arg11)) :=
  (W4_of_ne m ρ c main_arg11 (by decide)).trans (W3_arg11 m ρ c)

/-! ## At the third launch's entry: the third stretch of host operations -/

/-- The aggregate of layer two. -/
theorem W5_agg : W5 m ρ c (Proc.devRef .tc main_v50) = aggregate (F := Ideal) (hidden (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))) (src (F := Ideal) (m ((c.tc : Thread nD τ).loc main_arg1))) (dst (F := Ideal) (m ((c.tc : Thread nD τ).loc main_arg1))) (m ((c.tc : Thread nD τ).loc main_arg2)) := by
  show StableHlo.after hostOps2 (W4 m ρ c) (Proc.devRef .tc main_v50) = _
  after_results_simp
  rw [W4_h m ρ c, W4_v1 m ρ c, W4_v3 m ρ c, W4_arg2 m ρ c]
  rfl
/-- Layer two, as the second launch left it. -/
theorem W5_x : W5 m ρ c (Proc.devRef .tc main_v37) = hidden (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) := by
  show StableHlo.after hostOps2 (W4 m ρ c) (Proc.devRef .tc main_v37) = _
  after_results_simp
  rw [W4_h m ρ c]
/-- Layer three's neighbour weights, transposed. -/
theorem W5_wl : W5 m ρ c (Proc.devRef .tc main_v51) = tr (F := Ideal) (m ((c.tc : Thread nD τ).loc main_arg9)) := by
  show StableHlo.after hostOps2 (W4 m ρ c) (Proc.devRef .tc main_v51) = _
  after_results_simp
  rw [W4_arg9 m ρ c]
  rfl
/-- Layer three's root weights, transposed. -/
theorem W5_wr : W5 m ρ c (Proc.devRef .tc main_v52) = tr (F := Ideal) (m ((c.tc : Thread nD τ).loc main_arg10)) := by
  show StableHlo.after hostOps2 (W4 m ρ c) (Proc.devRef .tc main_v52) = _
  after_results_simp
  rw [W4_arg10 m ρ c]
  rfl
/-- Layer three's bias, recast to a row. -/
theorem W5_b : W5 m ρ c (Proc.devRef .tc main_v53) = shapeCast S1x128 (m ((c.tc : Thread nD τ).loc main_arg11)) Facts₀.shapeCasts_S128_S1x128 := by
  show StableHlo.after hostOps2 (W4 m ρ c) (Proc.devRef .tc main_v53) = _
  after_results_simp
  rw [W4_arg11 m ρ c]
  rfl

/-! ## After the third launch: the result -/

/-- The third launch leaves the network of the twelve arguments in the result buffer. -/
theorem result_eq : W6 m ρ c (Proc.devRef .tc main_v54)
    = net (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) := by
  refine (W6_arr m ρ c 5).trans ((Layer2.final (V5 m ρ) c).trans ?_)
  show linearArr (W5 m ρ c (Proc.devRef .tc main_v50)) (W5 m ρ c (Proc.devRef .tc main_v37)) (W5 m ρ c (Proc.devRef .tc main_v51)) (W5 m ρ c (Proc.devRef .tc main_v52)) (W5 m ρ c (Proc.devRef .tc main_v53)) = _
  rw [W5_agg m ρ c, W5_x m ρ c, W5_wl m ρ c, W5_wr m ρ c, W5_b m ρ c, shapeCast_eq_rowOf]
  rfl

end Cert.KernelIdeal.Chain

end
-- ==== Proof.RefNet.lean ====
/-
  The reference computes the network.

  The reference's result, as its run reads it back, is three nested layers in the host's spelling: each aggregates
  (gather, scale, scatter-add), contracts the aggregate and the node features with the two transposed weight matrices,
  adds the products, adds the bias spread over the rows, and — layers one and two — takes the maximum with zero.  On the
  extended reals a contraction is the sum of products and a spread bias is read at its column, so each such layer is the
  dense layer's array of the aggregate (LibGraphLayer), and the nest is the network (GraphNet).
-/
import proofs.«174606_j17231408791768_2_alg».proof.Proof.Gen.ReferenceIdeal.Run
import proofs.«174606_j17231408791768_2_alg».proof.Proof.GraphNet

noncomputable section

namespace Cert.ReferenceIdeal.RefNet

open Idealize.ShloMosaic Idealize.ShloMosaic.TcCoe Idealize.ShloMosaic.ValueIdx Idealize.SL.Sem
open Cert.ReferenceIdeal Cert.ReferenceIdeal.Value Cert.ReferenceIdeal.Facts₀
open Cert.LibSageLayers Cert.LibGraphLayer Cert.GraphNet

/-- A rectified layer as the host spells it. -/
def hiddenHost (h : FVec Ideal S50000x128 .f32) (ei : (⟨S2x800000, .i32⟩ : BufTy).Contents (Elt Ideal))
    (ew : FVec Ideal S800000 .f32) (wrel wroot : FVec Ideal S128x128 .f32) (b : FVec Ideal S128 .f32) :
    FVec Ideal S50000x128 .f32 :=
  maximumf (addf (addf (Host.dotGeneral (φ₁ := .f32) (φ₂ := .f32) dot_S50000x128_S128x128_S50000x128_1_0_0_1_n_n none
        (aggregate (F := Ideal) h (src ei) (dst ei) ew : FVec Ideal S50000x128 .f32) (tr (F := Ideal) wrel : FVec Ideal S128x128 .f32))
      (Host.dotGeneral (φ₁ := .f32) (φ₂ := .f32) dot_S50000x128_S128x128_S50000x128_1_0_0_1_n_n none h (tr (F := Ideal) wroot : FVec Ideal S128x128 .f32)))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The last layer as the host spells it. -/
def outputHost (h : FVec Ideal S50000x128 .f32) (ei : (⟨S2x800000, .i32⟩ : BufTy).Contents (Elt Ideal))
    (ew : FVec Ideal S800000 .f32) (wrel wroot : FVec Ideal S128x128 .f32) (b : FVec Ideal S128 .f32) :
    FVec Ideal S50000x128 .f32 :=
  addf (addf (Host.dotGeneral (φ₁ := .f32) (φ₂ := .f32) dot_S50000x128_S128x128_S50000x128_1_0_0_1_n_n none
        (aggregate (F := Ideal) h (src ei) (dst ei) ew : FVec Ideal S50000x128 .f32) (tr (F := Ideal) wrel : FVec Ideal S128x128 .f32))
      (Host.dotGeneral (φ₁ := .f32) (φ₂ := .f32) dot_S50000x128_S128x128_S50000x128_1_0_0_1_n_n none h (tr (F := Ideal) wroot : FVec Ideal S128x128 .f32)))
      (broadcastInDim S50000x128 ![0, 1] bcast_S1x128_S50000x128_0_1 (broadcastInDim S1x128 ![1] bcast_S128_S1x128_1 b))

theorem hiddenHost_eq (h : FVec Ideal S50000x128 .f32) (ei : (⟨S2x800000, .i32⟩ : BufTy).Contents (Elt Ideal))
    (ew : FVec Ideal S800000 .f32) (wrel wroot : FVec Ideal S128x128 .f32) (b : FVec Ideal S128 .f32) :
    hiddenHost h ei ew wrel wroot b = Cert.GraphNet.hidden h ei ew wrel wroot b := by
  unfold hiddenHost Cert.GraphNet.hidden
  exact hidden_host dot_S50000x128_S128x128_S50000x128_1_0_0_1_n_n rfl _ _ _ _ b bcast_S128_S1x128_1 bcast_S1x128_S50000x128_0_1
    bcast_S_S50000x128

theorem outputHost_eq (h : FVec Ideal S50000x128 .f32) (ei : (⟨S2x800000, .i32⟩ : BufTy).Contents (Elt Ideal))
    (ew : FVec Ideal S800000 .f32) (wrel wroot : FVec Ideal S128x128 .f32) (b : FVec Ideal S128 .f32) :
    outputHost h ei ew wrel wroot b = Cert.GraphNet.output h ei ew wrel wroot b := by
  unfold outputHost Cert.GraphNet.output
  exact linear_host dot_S50000x128_S128x128_S50000x128_1_0_0_1_n_n rfl _ _ _ _ b bcast_S128_S1x128_1 bcast_S1x128_S50000x128_0_1

set_option maxRecDepth 131072 in
/-- The run's result term is the three host-spelled layers, nested. -/
theorem res_eq_host (m : (ℓ : Loc nD τ sig) → Buf (Elt Ideal) ℓ) (c : Dev nD) :
    res_main_v68 (F := Ideal) m c
      = outputHost (hiddenHost (hiddenHost (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7))
          (m ((c.tc : Thread nD τ).loc main_arg8)))
        (m ((c.tc : Thread nD τ).loc main_arg1)) (m ((c.tc : Thread nD τ).loc main_arg2))
        (m ((c.tc : Thread nD τ).loc main_arg9)) (m ((c.tc : Thread nD τ).loc main_arg10))
        (m ((c.tc : Thread nD τ).loc main_arg11)) := rfl

/-- The reference's result is the network of its arguments. -/
theorem result_eq (m : (ℓ : Loc nD τ sig) → Buf (Elt Ideal) ℓ) (c : Dev nD) :
    res_main_v68 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [res_eq_host, hiddenHost_eq, hiddenHost_eq, outputHost_eq]
  rfl

end Cert.ReferenceIdeal.RefNet

end
-- ==== Proof.Algebraic.lean ====
/-
  The two idealized programs end with equal results.

  From memories that agree on the twelve arguments, the idealized kernel ends with the network of its arguments in its
  result buffer (KernelRun: the run with every buffer named; KernelNet: the fold through the three launches), and the
  idealized reference ends with the network of its own arguments (its generated run; RefNet).  The arguments agree, so
  the two results are one array of extended reals.  No precondition is used: the two sides are the same sums in the
  same order, over the same aggregation.
-/
import proofs.«174606_j17231408791768_2_alg».proof.Defs
import proofs.«174606_j17231408791768_2_alg».proof.Proof.Gen.Kernel
import proofs.«174606_j17231408791768_2_alg».proof.Proof.Gen.KernelIdeal
import proofs.«174606_j17231408791768_2_alg».proof.Proof.Gen.ReferenceIdeal
import proofs.«174606_j17231408791768_2_alg».proof.Proof.Gen.Pre_finite_inputs
import proofs.«174606_j17231408791768_2_alg».proof.Proof.Gen.ReferenceIdeal.Run
import proofs.«174606_j17231408791768_2_alg».proof.Proof.KernelRun
import proofs.«174606_j17231408791768_2_alg».proof.Proof.KernelNet
import proofs.«174606_j17231408791768_2_alg».proof.Proof.RefNet

noncomputable section

namespace Cert.Proof.Bridge

open Idealize.ShloMosaic Idealize.ShloMosaic.TcCoe Idealize.SL.Sem

/-- Both runs end at the network of the kernel's arguments. -/
theorem algebraic : Cert.algebraic_KernelIdeal_ReferenceIdeal := by
  intro m ρ m' ρ' _ hagree
  refine ⟨fun c => Cert.GraphNet.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefNet.result_eq m' c, (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2]

end Cert.Proof.Bridge

end
-- ==== Proof.lean ====
/-
  The proof of `Cert.Claim`: the three frames, the idealization's ledger, and the equality of the two idealized
  programs' results.

  The kernel is a three-layer graph convolution.  Each layer aggregates the current node features along the edges on
  the host (gather the source rows, scale by the edge weights, scatter-add at the target rows) and then runs one
  launch of a dense kernel over blocks of 2000 nodes: (agg · Wrelᵀ + h · Wrootᵀ) + b, rectified in layers one and two.
  The reference does the same with host contractions.  On the extended reals the kernel's block products into zero and
  the host's contractions are the same sums of products, in the same order and grouping, so the two results are equal
  entry by entry whatever the inputs: the bridge is in Proof/Algebraic.lean and the modules it imports.
  Both kernels' frames are the launch-by-launch frame certificates; the reference's frame is its run with the result
  dropped; the ideal pass rewrote nothing, so its ledger is empty.
-/
import proofs.«174606_j17231408791768_2_alg».proof.Defs
import proofs.«174606_j17231408791768_2_alg».proof.Proof.Gen.Kernel
import proofs.«174606_j17231408791768_2_alg».proof.Proof.Gen.Kernel.Skeleton
import proofs.«174606_j17231408791768_2_alg».proof.Proof.KernelLaunchP
import proofs.«174606_j17231408791768_2_alg».proof.Proof.Gen.Kernel.Points
import proofs.«174606_j17231408791768_2_alg».proof.Proof.KernelFrameP
import proofs.«174606_j17231408791768_2_alg».proof.Proof.Gen.KernelIdeal
import proofs.«174606_j17231408791768_2_alg».proof.Proof.Gen.KernelIdeal.Skeleton
import proofs.«174606_j17231408791768_2_alg».proof.Proof.KernelIdealLaunchP
import proofs.«174606_j17231408791768_2_alg».proof.Proof.Gen.KernelIdeal.Points
import proofs.«174606_j17231408791768_2_alg».proof.Proof.KernelIdealFrameP
import proofs.«174606_j17231408791768_2_alg».proof.Proof.Gen.ReferenceIdeal
import proofs.«174606_j17231408791768_2_alg».proof.Proof.Gen.Pre_finite_inputs
import proofs.«174606_j17231408791768_2_alg».proof.Proof.Gen.ReferenceIdeal.Run
import proofs.«174606_j17231408791768_2_alg».proof.Proof.Gen.ReferenceIdeal.Read
import proofs.«174606_j17231408791768_2_alg».proof.Proof.Algebraic
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Bridge.algebraic⟩

end Cert.Proof

end
